-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S4096 : Shape := ⟨1, ![4096]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x16384 1) : IVec S_ 1 :=
  let main_c_5 : IVec S_ 1 := constantI S_ 1 1#1
  let main_v17 : IVec S_ 1 := (fun x v => Host.reduce IntOp.andi x v reducesTo_S4096x16384_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x16384 .f32) (main_arg1 : FVec F S4096x16384 .f32) (main_arg2 : FVec F S4096x16384 .f32) (main_arg3 : FVec F S4096x16384 .f32) (main_arg4 : FVec F S4096 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096x16384 .f32 := Host.absf main_arg2
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  let main_v14 : FVec F S4096x16384 .f32 := Host.absf main_arg3
  let main_cst_4 : FVec F S_ .f32 := constant S_ .f32 0x7F800000#32
  let main_v15 : FVec F S4096x16384 .f32 := broadcastInDim S4096x16384 ![] bcast_S_S4096x16384 main_cst_4
  let main_v16 : IVec S4096x16384 1 := cmpf .olt main_v14 main_v15
  fn_part1 (F := F) main_arg4 main_v13 main_v16
-- ==== Kernel.lean ====
abbrev S4096x16384 : Shape := ⟨2, ![4096, 16384]⟩
abbrev S4096 : Shape := ⟨1, ![4096]⟩
abbrev S4096x1 : Shape := ⟨2, ![4096, 1]⟩
abbrev S256x4096 : Shape := ⟨2, ![256, 4096]⟩
abbrev S256x1 : Shape := ⟨2, ![256, 1]⟩
abbrev S256x2048 : Shape := ⟨2, ![256, 2048]⟩
abbrev S256 : Shape := ⟨1, ![256]⟩
abbrev S_ : Shape := ⟨0, ![]⟩

abbrev nBuf : Space → Nat
  | .hbm => 13
  | .vmem => 13
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x16384, .f32⟩
  | .hbm, ⟨3, _⟩ => ⟨S4096x16384, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg9 : BitVec 32 := Scf.iv c0_i32_1 c1_i32 k0_t1
  let c1_i32_4 : BitVec 32 := 1#32
  let v7 : BitVec 32 := Scalar.muli arg9 c1_i32_4
  let v8 : BitVec 32 := Scalar.addi c0_i32_5 v7
  let c2048_i32 : BitVec 32 := 2048#32
  let v9 : BitVec 32 := Scalar.muli v8 c2048_i32
  v9
def k0_off1 (k0_t1 : Fin k0_t1_loop.trips) : Fin 2 → Nat :=
  let c0 : Index := 0#32
  let c0_i32_5 : BitVec 32 := 0#32
  let c0_i32_1 : BitVec 32 := 0#32
  let c1_i32 : BitVec 32 := 1#32
  let arg9 : BitVec 32 := Scf.iv c0_i32_1 c1_i32 k0_t1
  let c1_i32_4 : BitVec 32 := 1#32
  let v7 : BitVec 32 := Scalar.muli arg9 c1_i32_4
  let v8 : BitVec 32 := Scalar.addi c0_i32_5 v7
  let c2048_i32 : BitVec 32 := 2048#32
  let v9 : BitVec 32 := Scalar.muli v8 c2048_i32
  let v10 : BitVec 32 := v9
  let v11 : Index := Scalar.indexCast v10
  ![0, v11.toNat]
def k0_cond2 (i : grid0.Coords) : BitVec 1 :=
  let arg1 : BitVec 32 := BitVec.ofNat 32 (i 1).val
  let c3_i32 : BitVec 32 := 3#32
  let v4 : BitVec 1 := Scalar.cmpi .eq arg1 c3_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4096_S4096x1 : S4096.ShapeCasts S4096x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  h_S256x2048 : 0 < S256x2048.numel
  reduces_S256x2048_S256 : S256x2048.Reduces [1] S256
  shapeCasts_S256_S256x1 : S256.ShapeCasts S256x1
  reducesTo_S4096x1_S_d0_1 : S4096x1.ReducesTo [0, 1] S_
  h_S_ : 0 < S_.numel
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S256x2048.size a ≤ S256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x16384.size a
  hwx0_0 : ∀ i : grid0.Coords, EltTy.bits .f32 = 32 ∨ (Rect.block (s := S4096x16384) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x16384.size a
  hwx0_1 : ∀ i : grid0.Coords, EltTy.bits .f32 = 32 ∨ (Rect.block (s := S4096x16384) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x16384.size a
  hwx0_2 : ∀ i : grid0.Coords, EltTy.bits .f32 = 32 ∨ (Rect.block (s := S4096x16384) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x16384.size a
  hwx0_3 : ∀ i : grid0.Coords, EltTy.bits .f32 = 32 ∨ (Rect.block (s := S4096x16384) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x16384 : Shape := ⟨2, ![4096, 16384]⟩
abbrev S4096 : Shape := ⟨1, ![4096]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x16384, .f32⟩
  | .hbm, ⟨3, _⟩ => ⟨S4096x16384, .f32⟩
  | .hbm, ⟨4, _⟩ => ⟨S4096, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .i1⟩
  | .hbm, ⟨22, _⟩ => ⟨S_, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_cst_7 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩

abbrev nD : Nat := 1
abbrev τ : Topo := Topo.v7x

variable {F : FTy → Type} [FloatOps F]

class Facts₀ : Prop where
  reducesTo_S4096x16384_S4096_d1 : S4096x16384.ReducesTo [1] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.LossSpec.lean ====
/-
  The loss both programs compute, stated once, over the extended reals, with no program in sight.

  Four arrays of 4096 samples by 16384 features (a predicted and a true sine part, a predicted and a true cosine part)
  and one number per sample (its shape type). Per sample b the squared differences of the sine parts and of the cosine
  parts are summed over the features; the sample's factor is 1 when its shape type is below one half and the single
  precision number nearest 1.3 otherwise; the loss is twice a mean over samples of weighted per-sample sums.

  The two programs arrange the mean differently. One adds the sine and cosine squares feature by feature, sums over the
  features, weights, sums over the samples and divides once by 4096 · 16384 = 2^26 ("pooled"). The other divides each of
  the two per-sample sums by 16384 first, adds the two quotients, weights, sums over the samples and divides by 4096
  ("staged"). Every float constant is kept as its bit pattern: the same pattern reads the same on both sides.
-/
import Idealize.ShloMosaic.PureOps.Ideal
import Idealize.ShloMosaic.Lib.ValueIdx

noncomputable section

namespace Cert.LossSpec

open Idealize.ShloMosaic Idealize.ShloMosaic.ValueIdx

/-- A 4096 × 16384 array of extended reals. -/
abbrev Mat : Type := (⟨2, ![4096, 16384]⟩ : Shape).Idx → EReal
/-- A vector of 4096 extended reals. -/
abbrev Col : Type := (⟨1, ![4096]⟩ : Shape).Idx → EReal

/-- The squared difference of two arrays at sample b, feature d. -/
def sqDiff (p q : Mat) (b : Fin 4096) (d : Fin 16384) : EReal :=
  (p (ix2 b d) - q (ix2 b d)) * (p (ix2 b d) - q (ix2 b d))

/-- A sample's factor from its shape type s: the word of 1.0 when s is below the word of 0.5, else the word of 1.3. -/
def factor (s : EReal) : EReal :=
  Scalar.select (FloatOps.cmpf (F := Ideal) (φ := .f32) .olt s (Ideal.ofBits .f32 0x3F000000#32))
    (Ideal.ofBits .f32 0x3F800000#32) (Ideal.ofBits .f32 0x3FA66666#32)

/-- Pooled: 2 · ((0 + ∑_b (∑_d (sin² + cos²)) · factor_b) / 2^26). -/
def pooled (a0 a1 a2 a3 : Mat) (a4 : Col) : EReal :=
  Ideal.ofBits .f32 0x40000000#32 * Ideal.div
    (Ideal.ofBits .f32 0x00000000#32
      + ∑ b : Fin 4096, (∑ d : Fin 16384, (sqDiff a0 a2 b d + sqDiff a1 a3 b d)) * factor (a4 (ix1 b)))
    (Ideal.ofBits .f32 0x4C800000#32)

/-- Staged: 2 · ((0 + ∑_b ((0 + ∑_d sin²) / 16384 + (0 + ∑_d cos²) / 16384) · factor_b) / 4096). -/
def staged (a0 a1 a2 a3 : Mat) (a4 : Col) : EReal :=
  Ideal.ofBits .f32 0x40000000#32 * Ideal.div
    (Ideal.ofBits .f32 0x00000000#32
      + ∑ b : Fin 4096,
          (Ideal.div (Ideal.ofBits .f32 0x00000000#32 + ∑ d : Fin 16384, sqDiff a0 a2 b d) (Ideal.ofBits .f32 0x46800000#32)
            + Ideal.div (Ideal.ofBits .f32 0x00000000#32 + ∑ d : Fin 16384, sqDiff a1 a3 b d) (Ideal.ofBits .f32 0x46800000#32))
          * factor (a4 (ix1 b)))
    (Ideal.ofBits .f32 0x45800000#32)

end Cert.LossSpec

end
-- ==== Proof.RefLoss.lean ====
/-
  The reference program's result is the staged arrangement of the loss.

  Read one operation at a time the reference computes, at its one result index,
      2 · ((0 + ∑_j ((0 + ∑_k (x0 − x2)²) / 16384 + (0 + ∑_k (x1 − x3)²) / 16384) · factor_j) / 4096),
  the outer sum over the rank-1 indices j of the 4096 samples and the inner sums over the 16384 features k. A rank-1
  index is its one coordinate, so the outer sum is the sum over b : Fin 4096; the index the inner sums read the arrays
  at, built from j and k, is the rank-2 index of coordinates b and k. What is left is the staged arrangement, word for
  word.
-/
import proofs.«109048_j74131135529095_2_alg».proof.Proof.Gen.ReferenceIdeal.Read
import proofs.«109048_j74131135529095_2_alg».proof.Proof.LossSpec

noncomputable section

namespace Cert.RefLoss

open Idealize.ShloMosaic Idealize.ShloMosaic.ValueIdx Cert.ReferenceIdeal Cert.ReferenceIdeal.Read Cert.LossSpec

/-- A rank-1 index set is its one coordinate range … -/
def idxEquiv1 (n : Nat) : (⟨1, ![n]⟩ : Shape).Idx ≃ Fin n where
  toFun j := j 0
  invFun := ix1
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ b : Fin n, f (ix1 b) :=
  (Equiv.sum_comp (idxEquiv1 n).symm f).symm

/-- The index the first per-sample sum reads at is the rank-2 index of the sample and the feature. -/
theorem idx_v2_eq (b : Fin 4096) (k : Fin 16384) : idx_main_v2 (ix1 b) k = ix2 b k :=
  funext fun a => Fin.ext (by match a with | ⟨0, _⟩ => rfl | ⟨1, _⟩ => rfl)

/-- The index the second per-sample sum reads at is the rank-2 index of the sample and the feature. -/
theorem idx_v7_eq (b : Fin 4096) (k : Fin 16384) : idx_main_v7 (ix1 b) k = ix2 b k :=
  funext fun a => Fin.ext (by match a with | ⟨0, _⟩ => rfl | ⟨1, _⟩ => rfl)

/-- The reference's result is the staged loss. -/
theorem reference_eq_staged (x0 x1 x2 x3 : (⟨Cert.ReferenceIdeal.S4096x16384, .f32⟩ : BufTy).Contents (Elt Ideal))
    (x4 : (⟨Cert.ReferenceIdeal.S4096, .f32⟩ : BufTy).Contents (Elt Ideal)) (i : Cert.ReferenceIdeal.S_.Idx) :
    Cert.ReferenceIdeal.Read.val_main_v18 (F := Ideal) x0 x1 x2 x3 x4 i = Cert.LossSpec.staged x0 x1 x2 x3 x4 := by
  rw [val_main_v18_apply, val_main_v17_apply, val_main_v16_apply, sum_idx1]
  simp only [val_main_v15_apply, val_main_v13_apply, val_main_v14_apply, val_main_v12_apply, val_main_v11_apply,
    val_main_v10_apply, val_main_cst_3_apply, val_main_call0_v0_apply, val_main_cst_4_apply, val_main_call0_v1_apply,
    val_main_cst_5_apply, val_main_v4_apply, val_main_v9_apply, val_main_v2_apply, val_main_v7_apply,
    val_main_v3_apply, val_main_v8_apply, val_main_cst_0_apply, val_main_cst_2_apply, val_main_v1_apply,
    val_main_v6_apply, val_main_v0_apply, val_main_v5_apply, val_main_cst_apply, val_main_cst_1_apply,
    val_main_cst_6_apply, val_main_cst_7_apply, val_main_cst_8_apply,
    Ideal.mulf_def, Ideal.addf_def, Ideal.subf_def, Ideal.hostDivf_def, Ideal.ofBits_def, idx_v2_eq, idx_v7_eq]
  rfl

end Cert.RefLoss

end
-- ==== Proof.LibRealVar.lean ====
/-
  Facts about extended reals that happen to be reals: a finite sum of reals is the real sum; sums, products,
  differences, quotients by a nonzero real, maxima and the reciprocal square root of a positive real stay real;
  and the variance identity: for a real column y_1 … y_n with mean μ = (∑ y) / n,
      (∑ (y_p − μ)²) / n = (∑ y_p²) / n − μ²,
  which is distributivity and therefore needs every y_p to be a real. The deviation form is also nonnegative.
-/
import Idealize.ShloMosaic.PureOps.Ideal

noncomputable section

namespace Cert.RealMath

open Idealize.ShloMosaic

/-- x is (the coercion of) a real number. -/
def IsReal (x : EReal) : Prop := ∃ r : ℝ, x = (r : EReal)

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isReal_div {x : EReal} {c : ℝ} (hx : IsReal x) (hc : c ≠ 0) : IsReal (Ideal.div x (c : EReal)) := by
  obtain ⟨a, rfl⟩ := hx
  exact ⟨a * (1 / c), by rw [Ideal.div_coe hc, ← EReal.coe_mul]⟩

theorem isReal_max {x y : EReal} (hx : IsReal x) (hy : IsReal y) : IsReal (max x y) := by
  rcases le_total x y with h | h
  · rw [max_eq_right h]; exact hy
  · rw [max_eq_left h]; exact hx

theorem isReal_rsqrt {r : ℝ} (h : 0 < r) : IsReal (Ideal.rsqrt (r : EReal)) :=
  ⟨(Real.sqrt r)⁻¹, by rw [Ideal.rsqrt_coe, if_neg (not_lt.mpr h.le), if_neg h.ne']⟩

section Variance

variable {n : ℕ} (y : Fin n → EReal) (c : ℝ)

/-- The variance identity on a real column. -/
theorem var_identity (hy : ∀ p, IsReal (y p)) (hc : c ≠ 0) (hn : (n : ℝ) = c) :
    Ideal.div (∑ p, (y p - Ideal.div (∑ p, y p) (c : EReal)) * (y p - Ideal.div (∑ p, y p) (c : EReal))) (c : EReal)
      = Ideal.div (∑ p, y p * y p) (c : EReal)
        - Ideal.div (∑ p, y p) (c : EReal) * Ideal.div (∑ p, y p) (c : EReal) := by
  choose yr hyr using hy
  simp only [hyr]
  have hS : ∑ p, ((yr p : ℝ) : EReal) = ((∑ p, yr p : ℝ) : EReal) := coe_sum _ _
  have hSS : ∑ p, ((yr p : ℝ) : EReal) * ((yr p : ℝ) : EReal) = ((∑ p, yr p * yr p : ℝ) : EReal) := by
    rw [← coe_sum]; exact Finset.sum_congr rfl fun p _ => (EReal.coe_mul _ _).symm
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc, ← EReal.coe_mul, hμ]
  rw [hM, hSS]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc, Ideal.div_coe hc, ← EReal.coe_mul, ← EReal.coe_mul, ← EReal.coe_mul, ← EReal.coe_sub]
  refine congrArg _ ?_
  have h1 : ∀ p, (yr p - μ) * (yr p - μ) = yr p * yr p - 2 * μ * yr p + μ * μ := fun p => by ring
  simp only [h1, Finset.sum_add_distrib, Finset.sum_sub_distrib, ← Finset.mul_sum, Finset.sum_const,
    Finset.card_univ, Fintype.card_fin, nsmul_eq_mul]
  rw [hn, hμ]
  field_simp
  ring

/-- The mean of squared deviations of a real column, over a positive count, is a nonnegative real. -/
theorem var_nonneg (hy : ∀ p, IsReal (y p)) (hc : 0 < c) :
    ∃ v : ℝ, 0 ≤ v ∧ Ideal.div (∑ p, (y p - Ideal.div (∑ p, y p) (c : EReal)) * (y p - Ideal.div (∑ p, y p) (c : EReal)))
      (c : EReal) = (v : EReal) := by
  choose yr hyr using hy
  simp only [hyr]
  have hS : ∑ p, ((yr p : ℝ) : EReal) = ((∑ p, yr p : ℝ) : EReal) := coe_sum _ _
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc.ne', ← EReal.coe_mul, hμ]
  rw [hM]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc.ne', ← EReal.coe_mul]
  exact ⟨_, mul_nonneg (Finset.sum_nonneg fun p _ => mul_self_nonneg _) (by positivity), rfl⟩

end Variance

end Cert.RealMath

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.LossAlgebra.lean ====
/-
  The pooled and the staged arrangement of the loss agree on real inputs.

  With every entry of the four arrays a real number, each squared difference is a real, so each per-sample sum
  S_b = ∑_d sin² and C_b = ∑_d cos² is a real; a sample's factor is one of two single precision words, both reals.
  Division by a nonzero real constant is multiplication by its reciprocal, so both sides are twice (one word, never
  evaluated) the coercion of a real number:
      pooled:  (∑_b (S_b + C_b) · f_b) · (1 / 2^26)
      staged:  (∑_b (S_b · (1/16384) + C_b · (1/16384)) · f_b) · (1 / 4096)
  and these are equal since 16384 · 4096 = 2^26. Distributivity fails at the infinities of the extended reals,
  which is why the inputs are required to be reals and the algebra is done in ℝ.
-/
import proofs.«109048_j74131135529095_2_alg».proof.Proof.LossSpec
import proofs.«109048_j74131135529095_2_alg».proof.Proof.LibRealVar
import proofs.«109048_j74131135529095_2_alg».proof.Proof.LibAllFinite

noncomputable section

namespace Cert.LossAlgebra

open Idealize.ShloMosaic Idealize.ShloMosaic.ValueIdx Cert.RealMath Cert.LossSpec

/-- The word 0x46800000 is the real 16384 = 2^14. -/
theorem ofBits_16384 : Ideal.ofBits .f32 0x46800000#32 = ((16384 : ℝ) : EReal) := by
  simp [Ideal.ofBits, Ideal.ieee, -EReal.coe_mul]; norm_num

/-- The word 0x45800000 is the real 4096 = 2^12. -/
theorem ofBits_4096 : Ideal.ofBits .f32 0x45800000#32 = ((4096 : ℝ) : EReal) := by
  simp [Ideal.ofBits, Ideal.ieee, -EReal.coe_mul]; norm_num

/-- The word 0x4C800000 is the real 67108864 = 2^26. -/
theorem ofBits_67108864 : Ideal.ofBits .f32 0x4C800000#32 = ((67108864 : ℝ) : EReal) := by
  simp [Ideal.ofBits, Ideal.ieee, -EReal.coe_mul]; norm_num

/-- The word 0x3FA66666 (the single precision number nearest 1.3) is a real. -/
theorem isReal_ofBits_13 : IsReal (Ideal.ofBits .f32 0x3FA66666#32) := by
  refine ⟨?_, ?_⟩
  swap
  · simp [Ideal.ofBits, Ideal.ieee, -EReal.coe_mul]
    rfl

/-- A sample's factor is a real, whatever its shape type. -/
theorem isReal_factor (s : EReal) : IsReal (factor s) := by
  unfold factor Scalar.select
  split_ifs
  · rw [Ideal.ofBits_one_f32]; exact ⟨1, by norm_cast⟩
  · exact isReal_ofBits_13

/-- With real entries the squared difference is the coercion of the real squared difference. -/
theorem sqDiff_coe (p q : Mat) (rp rq : (⟨2, ![4096, 16384]⟩ : Shape).Idx → ℝ)
    (hp : ∀ i, p i = (rp i : EReal)) (hq : ∀ i, q i = (rq i : EReal)) (b : Fin 4096) (d : Fin 16384) :
    sqDiff p q b d = (((rp (ix2 b d) - rq (ix2 b d)) * (rp (ix2 b d) - rq (ix2 b d)) : ℝ) : EReal) := by
  unfold sqDiff
  rw [hp, hq, ← EReal.coe_sub, ← EReal.coe_mul]

/-- The pooled and the staged arrangement agree when the four arrays hold reals. -/
theorem pooled_eq_staged (a0 a1 a2 a3 : Cert.LossSpec.Mat) (a4 : Cert.LossSpec.Col)
    (h0 : ∀ i, Cert.RealMath.IsReal (a0 i)) (h1 : ∀ i, Cert.RealMath.IsReal (a1 i))
    (h2 : ∀ i, Cert.RealMath.IsReal (a2 i)) (h3 : ∀ i, Cert.RealMath.IsReal (a3 i)) :
    Cert.LossSpec.pooled a0 a1 a2 a3 a4 = Cert.LossSpec.staged a0 a1 a2 a3 a4 := by
  choose r0 hr0 using h0
  choose r1 hr1 using h1
  choose r2 hr2 using h2
  choose r3 hr3 using h3
  choose f hf using fun b : Fin 4096 => isReal_factor (a4 (ix1 b))
  -- the per-sample real sums
  obtain ⟨S, hS⟩ : ∃ S : Fin 4096 → ℝ, S = fun b =>
      ∑ d : Fin 16384, (r0 (ix2 b d) - r2 (ix2 b d)) * (r0 (ix2 b d) - r2 (ix2 b d)) := ⟨_, rfl⟩
  obtain ⟨C, hC⟩ : ∃ C : Fin 4096 → ℝ, C = fun b =>
      ∑ d : Fin 16384, (r1 (ix2 b d) - r3 (ix2 b d)) * (r1 (ix2 b d) - r3 (ix2 b d)) := ⟨_, rfl⟩
  have hSs : ∀ b, ∑ d : Fin 16384, sqDiff a0 a2 b d = ((S b : ℝ) : EReal) := fun b => by
    rw [hS, ← coe_sum]; exact Finset.sum_congr rfl fun d _ => sqDiff_coe a0 a2 r0 r2 hr0 hr2 b d
  have hCs : ∀ b, ∑ d : Fin 16384, sqDiff a1 a3 b d = ((C b : ℝ) : EReal) := fun b => by
    rw [hC, ← coe_sum]; exact Finset.sum_congr rfl fun d _ => sqDiff_coe a1 a3 r1 r3 hr1 hr3 b d
  have hSC : ∀ b, ∑ d : Fin 16384, (sqDiff a0 a2 b d + sqDiff a1 a3 b d) = ((S b + C b : ℝ) : EReal) := fun b => by
    rw [Finset.sum_add_distrib, hSs, hCs, EReal.coe_add]
  have h14 : (16384 : ℝ) ≠ 0 := by norm_num
  have h12 : (4096 : ℝ) ≠ 0 := by norm_num
  have h26 : (67108864 : ℝ) ≠ 0 := by norm_num
  unfold pooled staged
  simp only [hSC, hSs, hCs, hf]
  rw [Ideal.ofBits_zero_f32, ofBits_16384, ofBits_4096, ofBits_67108864]
  simp only [zero_add, Ideal.div_coe h14, ← EReal.coe_mul, ← EReal.coe_add]
  rw [coe_sum, coe_sum, Ideal.div_coe h12, Ideal.div_coe h26, ← EReal.coe_mul, ← EReal.coe_mul]
  refine congrArg (fun t : ℝ => Ideal.ofBits .f32 0x40000000#32 * (t : EReal)) ?_
  rw [Finset.sum_mul, Finset.sum_mul]
  refine Finset.sum_congr rfl fun b _ => ?_
  field_simp
  ring

end Cert.LossAlgebra

end
-- ==== Proof.FiniteArgs.lean ====
/-
  The "finite inputs" precondition makes every entry of the four arrays a real number.

  The precondition is the conjunction, by one-bit `and`, of five all-reductions, one per argument, each of the
  comparison |x| < +∞ entry by entry. When the conjunction is one every conjunct is one, and an all-reduction being
  one makes every entry of its argument a real number.
-/
import proofs.«109048_j74131135529095_2_alg».proof.Pre_finite_inputs
import proofs.«109048_j74131135529095_2_alg».proof.Proof.Gen.Pre_finite_inputs
import proofs.«109048_j74131135529095_2_alg».proof.Proof.LibAllFinite
import proofs.«109048_j74131135529095_2_alg».proof.Proof.LibRealVar

noncomputable section

namespace Cert.FiniteArgs

open Idealize.ShloMosaic Idealize.ShloMosaic.ValueIdx Cert.RealMath

/-- The precondition being one makes every entry of the first four arguments a real. -/
theorem real_args (x0 x1 x2 x3 : FVec Ideal Cert.Pre_finite_inputs.S4096x16384 .f32)
    (x4 : FVec Ideal Cert.Pre_finite_inputs.S4096 .f32) [Cert.Pre_finite_inputs.Facts]
    (h : Cert.Pre_finite_inputs.fn (F := Ideal) x0 x1 x2 x3 x4 = fun _ => 1#1) :
    (∀ i, Cert.RealMath.IsReal (x0 i)) ∧ (∀ i, Cert.RealMath.IsReal (x1 i))
      ∧ (∀ i, Cert.RealMath.IsReal (x2 i)) ∧ (∀ i, Cert.RealMath.IsReal (x3 i)) := by
  have e := congrFun h ix0
  dsimp only [Cert.Pre_finite_inputs.fn, Cert.Pre_finite_inputs.fn_part1, andi] at e
  obtain ⟨e, -⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => Cert.Lib.AllFinite.real_of_all x0 _ _ _ e0 i, fun i => Cert.Lib.AllFinite.real_of_all x1 _ _ _ e1 i,
    fun i => Cert.Lib.AllFinite.real_of_all x2 _ _ _ e2 i, fun i => Cert.Lib.AllFinite.real_of_all x3 _ _ _ e3 i⟩

end Cert.FiniteArgs

end
-- ==== Proof.RefBridge.lean ====
/-
  The reference program's result is the pooled loss, under the "finite inputs" precondition.

  The reference computes the staged arrangement; the precondition makes every entry of the four arrays a real
  number; on real inputs the staged and the pooled arrangement agree.
-/
import proofs.«109048_j74131135529095_2_alg».proof.Proof.RefLoss
import proofs.«109048_j74131135529095_2_alg».proof.Proof.LossAlgebra
import proofs.«109048_j74131135529095_2_alg».proof.Proof.FiniteArgs

noncomputable section

namespace Cert.RefBridge

open Idealize.ShloMosaic Cert.ReferenceIdeal Cert.ReferenceIdeal.Gen

/-- The reference's last value, at its one index, is the pooled loss of its arguments. -/
theorem val_eq_pooled [Cert.Pre_finite_inputs.Facts]
    (x0 x1 x2 x3 : (⟨S4096x16384, .f32⟩ : BufTy).Contents (Elt Ideal)) (x4 : (⟨S4096, .f32⟩ : BufTy).Contents (Elt Ideal))
    (h : Cert.Pre_finite_inputs.fn (F := Ideal) x0 x1 x2 x3 x4 = fun _ => 1#1) :
    Cert.ReferenceIdeal.Read.val_main_v18 (F := Ideal) x0 x1 x2 x3 x4 = fun _ => Cert.LossSpec.pooled x0 x1 x2 x3 x4 := by
  obtain ⟨h0, h1, h2, h3⟩ := Cert.FiniteArgs.real_args x0 x1 x2 x3 x4 h
  funext i
  rw [Cert.RefLoss.reference_eq_staged]
  exact (Cert.LossAlgebra.pooled_eq_staged x0 x1 x2 x3 x4 h0 h1 h2 h3).symm

/-- The same for the composed term of the reference's operations that its run states. -/
theorem reference_eq_pooled [Cert.Pre_finite_inputs.Facts]
    (x0 x1 x2 x3 : (⟨S4096x16384, .f32⟩ : BufTy).Contents (Elt Ideal)) (x4 : (⟨S4096, .f32⟩ : BufTy).Contents (Elt Ideal))
    (h : Cert.Pre_finite_inputs.fn (F := Ideal) x0 x1 x2 x3 x4 = fun _ => 1#1) :
    (mulf (F := Ideal) (constant (F := Ideal) S_ .f32 0x40000000#32) (Host.divf (F := Ideal) (Host.reduceAdd (F := Ideal) (mulf (F := Ideal) (addf (F := Ideal) (Host.divf (F := Ideal) (Host.reduceAdd (F := Ideal) (mulf (F := Ideal) (subf (F := Ideal) (x0) (x2)) (subf (F := Ideal) (x0) (x2))) (constant (F := Ideal) S_ .f32 0x00000000#32) reducesTo_S4096x16384_S4096_d1 h_S_) (broadcastInDim S4096 ![] bcast_S_S4096 (constant (F := Ideal) S_ .f32 0x46800000#32))) (Host.divf (F := Ideal) (Host.reduceAdd (F := Ideal) (mulf (F := Ideal) (subf (F := Ideal) (x1) (x3)) (subf (F := Ideal) (x1) (x3))) (constant (F := Ideal) S_ .f32 0x00000000#32) reducesTo_S4096x16384_S4096_d1 h_S_) (broadcastInDim S4096 ![] bcast_S_S4096 (constant (F := Ideal) S_ .f32 0x46800000#32)))) (id (select (cmpf (F := Ideal) .olt (x4) (broadcastInDim S4096 ![] bcast_S_S4096 (constant (F := Ideal) S_ .f32 0x3F000000#32))) (broadcastInDim S4096 ![] bcast_S_S4096 (constant (F := Ideal) S_ .f32 0x3F800000#32)) (broadcastInDim S4096 ![] bcast_S_S4096 (constant (F := Ideal) S_ .f32 0x3FA66666#32))))) (constant (F := Ideal) S_ .f32 0x00000000#32) reducesTo_S4096_S_d0 h_S_) (constant (F := Ideal) S_ .f32 0x45800000#32)) : (⟨S_, .f32⟩ : BufTy).Contents (Elt Ideal))
      = fun _ => Cert.LossSpec.pooled x0 x1 x2 x3 x4 := by
  rw [Cert.ReferenceIdeal.Read.val_main_v18_eq]
  exact val_eq_pooled x0 x1 x2 x3 x4 h

end Cert.RefBridge

end
-- ==== Proof.TileBody.lean ====
/-
  What one grid point's body leaves behind, as values.

  The body keeps a column accumulator of 256 rows. At a point it walks its 256 × 4096 input blocks in two chunks of
  2048 columns; for each chunk it adds, row by row, the chunk's row sums of (p − q)² + (u − v)² to the accumulator
  (`chunkStep`). At the first column tile of a row tile the accumulator starts from the zero column; at the last one
  the output block is the accumulator times the row's factor. Here the pieces the body's run was found to store are
  read back as these values, for every float instance.
-/
import proofs.«109048_j74131135529095_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.TileBody

open Cert.KernelIdeal Cert.KernelIdeal.Gen

variable {F : FTy → Type} [FloatOps F]

theorem hz : (![0, 0] : Fin 2 → Nat) = fun _ => 0 := funext fun a => by fin_cases a <;> rfl

/-- The first and the second chunk. -/
abbrev t0 : Fin k0_t1_loop.trips := ⟨0, by decide⟩
abbrev t1 : Fin k0_t1_loop.trips := ⟨1, by decide⟩

/-- The columns of chunk k inside a 256 × 4096 block: all 256 rows, 2048 columns from 2048·k. -/
abbrev chunkRect (k : Fin k0_t1_loop.trips) : Rect S256x4096 :=
  Rect.unit (s := S256x4096) (k0_off1 k) S256x2048.size (k0_off1_inb k)

/-- The whole accumulator column. -/
abbrev colRect : Rect S256x1 := Rect.unit (s := S256x1) ![0, 0] S256x1.size inb_S256x1_S256x1_0_0

/-- One chunk's update of the accumulator: the body's accumulate payload on chunk k of the four blocks. -/
def chunkStep (x0 x1 x2 x3 : Vec F S256x4096 .f32) (k : Fin k0_t1_loop.trips) (acc : Vec F S256x1 .f32) : Vec F S256x1 .f32 :=
  k0_pay2 (View.ld x0 (chunkRect k)) (View.ld x2 (chunkRect k)) (View.ld x1 (chunkRect k)) (View.ld x3 (chunkRect k)) acc

/-- Both chunks of a point, in order. -/
def pointStep (x0 x1 x2 x3 : Vec F S256x4096 .f32) (acc : Vec F S256x1 .f32) : Vec F S256x1 .f32 :=
  chunkStep x0 x1 x2 x3 t1 (chunkStep x0 x1 x2 x3 t0 acc)

/-- Every index of the column lies in the whole-column rectangle. -/
theorem mem_colRect (y : S256x1.Idx) : y ∈ (colRect).set := by
  have key : ∀ (off : Fin S256x1.rank → Nat) (h : off = fun _ => 0) (inb : ∀ a, off a + S256x1.size a ≤ S256x1.size a),
      y ∈ (Rect.unit (s := S256x1) off S256x1.size inb).set := by
    intro off h inb; subst h
    show y ∈ (Rect.whole S256x1).set
    rw [Rect.set_whole]; exact Finset.mem_univ y
  exact key _ hz _

/-- Reading back a column after writes whose last one stores the whole column gives that store's payload. -/
theorem cover_col (w : S256x1.Idx → Elt F .f32) (L : List (View.Piece (Elt F) S256x1 .f32)) :
    ∀ y : S256x1.Idx, ∃ p ∈ ((⟨colRect, w⟩ : View.Piece (Elt F) S256x1 .f32) :: L), y ∈ p.1.set :=
  fun y => ⟨_, List.mem_cons_self .., mem_colRect y⟩

/-- The contents a list of stores leaves, when the last store is the whole column, are that store's payload. -/
theorem canon_col (w : S256x1.Idx → Elt F .f32) (L : List (View.Piece (Elt F) S256x1 .f32)) :
    View.canon ((⟨colRect, w⟩ : View.Piece (Elt F) S256x1 .f32) :: L) = w :=
  View.canon_cons_unit_zero (S := S256x1) hz _ w L

theorem read_writes_col (v : View sig .tc .vmem S256x1 .f32) (f : v.ty.Contents (Elt F)) (w : S256x1.Idx → Elt F .f32)
    (L : List (View.Piece (Elt F) S256x1 .f32)) :
    v.read (Elt F) (v.writes (Elt F) f ((⟨colRect, w⟩ : View.Piece (Elt F) S256x1 .f32) :: L)) = w := by
  rw [View.read_writes_eq_canon v f _ (cover_col w L)]
  exact canon_col w L

variable (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole)

/-- What one trip of the chunk loop stores: one piece, the whole column, at the accumulate payload of the chunk's four
    loads and of the column it finds. -/
theorem tripL_eq (X2 : BufTy.Contents (Elt F) arg2.view.ty) (X3 : BufTy.Contents (Elt F) arg3.view.ty)
    (X4 : BufTy.Contents (Elt F) arg4.view.ty) (X5 : BufTy.Contents (Elt F) arg5.view.ty) (k : Fin k0_t1_loop.trips)
    (f : BufTy.Contents (Elt F) arg8.view.ty) :
    tripL_k0_t1 (F := F) Variants.none c none i arg2 harg2 arg3 harg3 arg4 harg4 arg5 harg5 arg6 harg6 arg7 harg7 arg8 harg8 X2 X3 X4 X5 k f
      = [⟨colRect, k0_pay2 (View.readAt (Elt F) arg2.view (chunkRect k).toLoadRect X2) (View.readAt (Elt F) arg4.view (chunkRect k).toLoadRect X4)
            (View.readAt (Elt F) arg3.view (chunkRect k).toLoadRect X3) (View.readAt (Elt F) arg5.view (chunkRect k).toLoadRect X5)
            (View.readAt (Elt F) arg8.view (colRect).toLoadRect f)⟩] := by
  unfold tripL_k0_t1
  unfold trip_k0_t1
  rfl

/-- The pieces of the two trips, last first: each one piece, the second taken at what the first left. -/
theorem pb_two (X2 : BufTy.Contents (Elt F) arg2.view.ty) (X3 : BufTy.Contents (Elt F) arg3.view.ty)
    (X4 : BufTy.Contents (Elt F) arg4.view.ty) (X5 : BufTy.Contents (Elt F) arg5.view.ty) (G : BufTy.Contents (Elt F) arg8.view.ty) :
    pb_k0_t1 (F := F) Variants.none c none i arg2 harg2 arg3 harg3 arg4 harg4 arg5 harg5 arg6 harg6 arg7 harg7 arg8 harg8 X2 X3 X4 X5 G 2
      = tripL_k0_t1 (F := F) Variants.none c none i arg2 harg2 arg3 harg3 arg4 harg4 arg5 harg5 arg6 harg6 arg7 harg7 arg8 harg8 X2 X3 X4 X5 t1
          (arg8.view.writes (Elt F) G (tripL_k0_t1 (F := F) Variants.none c none i arg2 harg2 arg3 harg3 arg4 harg4 arg5 harg5 arg6 harg6 arg7 harg7 arg8 harg8 X2 X3 X4 X5 t0 G))
        ++ tripL_k0_t1 (F := F) Variants.none c none i arg2 harg2 arg3 harg3 arg4 harg4 arg5 harg5 arg6 harg6 arg7 harg7 arg8 harg8 X2 X3 X4 X5 t0 G := by
  have e1 := pb_k0_t1_succ (F := F) Variants.none c none i arg2 harg2 arg3 harg3 arg4 harg4 arg5 harg5 arg6 harg6 arg7 harg7 arg8 harg8 X2 X3 X4 X5 G t1
  have e0 := pb_k0_t1_succ (F := F) Variants.none c none i arg2 harg2 arg3 harg3 arg4 harg4 arg5 harg5 arg6 harg6 arg7 harg7 arg8 harg8 X2 X3 X4 X5 G t0
  have z : pb_k0_t1 (F := F) Variants.none c none i arg2 harg2 arg3 harg3 arg4 harg4 arg5 harg5 arg6 harg6 arg7 harg7 arg8 harg8 X2 X3 X4 X5 G 0 = [] := rfl
  change pb_k0_t1 (F := F) Variants.none c none i arg2 harg2 arg3 harg3 arg4 harg4 arg5 harg5 arg6 harg6 arg7 harg7 arg8 harg8 X2 X3 X4 X5 G 1 = _ ++ pb_k0_t1 (F := F) Variants.none c none i arg2 harg2 arg3 harg3 arg4 harg4 arg5 harg5 arg6 harg6 arg7 harg7 arg8 harg8 X2 X3 X4 X5 G 0 at e0
  rw [z, List.append_nil] at e0
  change pb_k0_t1 (F := F) Variants.none c none i arg2 harg2 arg3 harg3 arg4 harg4 arg5 harg5 arg6 harg6 arg7 harg7 arg8 harg8 X2 X3 X4 X5 G 2 = _ ++ pb_k0_t1 (F := F) Variants.none c none i arg2 harg2 arg3 harg3 arg4 harg4 arg5 harg5 arg6 harg6 arg7 harg7 arg8 harg8 X2 X3 X4 X5 G 1 at e1
  rw [e1]
  show tripL_k0_t1 (F := F) Variants.none c none i arg2 harg2 arg3 harg3 arg4 harg4 arg5 harg5 arg6 harg6 arg7 harg7 arg8 harg8 X2 X3 X4 X5 t1
      (arg8.view.writes (Elt F) G (pb_k0_t1 (F := F) Variants.none c none i arg2 harg2 arg3 harg3 arg4 harg4 arg5 harg5 arg6 harg6 arg7 harg7 arg8 harg8 X2 X3 X4 X5 G 1)) ++ _ = _
  rw [e0]
  rfl

/-- After the chunk loop the stores' canonical contents are both chunk updates applied to the column found at entry,
    whatever was stored before the loop. -/
theorem canon_after_loop (x0 x1 x2 x3 : Vec F S256x4096 .f32) (G : BufTy.Contents (Elt F) arg8.view.ty)
    (L : List (View.Piece (Elt F) S256x1 .f32)) (n : ℕ) (hn : n = 2) :
    View.canon (pb_k0_t1 (F := F) Variants.none c none i arg2 harg2 arg3 harg3 arg4 harg4 arg5 harg5 arg6 harg6 arg7 harg7 arg8 harg8 (harg2.unread x0) (harg3.unread x1) (harg4.unread x2) (harg5.unread x3) G n ++ L) = pointStep x0 x1 x2 x3 (arg8.view.read (Elt F) G) := by
  subst hn
  rw [pb_two, tripL_eq, tripL_eq]
  rw [List.append_assoc, List.singleton_append, canon_col]
  unfold pointStep chunkStep
  simp only [View.readAt_eq_ld, harg2.read_unread, harg3.read_unread, harg4.read_unread, harg5.read_unread,
    read_writes_col, View.ld_unit_zero (S := S256x1) hz]

/-- Reading the column back after the chunk loop: the same. -/
theorem read_after_loop (x0 x1 x2 x3 : Vec F S256x4096 .f32) (G : BufTy.Contents (Elt F) arg8.view.ty) (n : ℕ) (hn : n = 2) :
    arg8.view.read (Elt F) (arg8.view.writes (Elt F) G (pb_k0_t1 (F := F) Variants.none c none i arg2 harg2 arg3 harg3 arg4 harg4 arg5 harg5 arg6 harg6 arg7 harg7 arg8 harg8 (harg2.unread x0) (harg3.unread x1) (harg4.unread x2) (harg5.unread x3) G n))
      = pointStep x0 x1 x2 x3 (arg8.view.read (Elt F) G) := by
  subst hn
  rw [pb_two, tripL_eq, tripL_eq]
  rw [List.singleton_append, read_writes_col]
  unfold pointStep chunkStep
  simp only [View.readAt_eq_ld, harg2.read_unread, harg3.read_unread, harg4.read_unread, harg5.read_unread,
    read_writes_col, View.ld_unit_zero (S := S256x1) hz]

theorem canon_after_loop_nil (x0 x1 x2 x3 : Vec F S256x4096 .f32) (G : BufTy.Contents (Elt F) arg8.view.ty) (n : ℕ) (hn : n = 2) :
    View.canon (pb_k0_t1 (F := F) Variants.none c none i arg2 harg2 arg3 harg3 arg4 harg4 arg5 harg5 arg6 harg6 arg7 harg7 arg8 harg8 (harg2.unread x0) (harg3.unread x1) (harg4.unread x2) (harg5.unread x3) G n) = pointStep x0 x1 x2 x3 (arg8.view.read (Elt F) G) := by
  have h := canon_after_loop c i arg2 harg2 arg3 harg3 arg4 harg4 arg5 harg5 arg6 harg6 arg7 harg7 arg8 harg8 x0 x1 x2 x3 G [] n hn
  rwa [List.append_nil] at h

/-- FIRST COLUMN TILE of a row tile: the accumulator is zeroed, then both chunks are added. -/
theorem sout_A (hc0 : cond0_0 i) (hc1 : ¬cond0_1 i) (x0 x1 x2 x3 : Vec F S256x4096 .f32) (x4 : Vec F S256x1 .f32) :
    sout0_A_0 c i arg2 harg2 arg3 harg3 arg4 harg4 arg5 harg5 arg6 harg6 arg7 harg7 arg8 harg8 hc0 hc1 x0 x1 x2 x3 x4 = pointStep x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  refine (canon_after_loop c i arg2 harg2 arg3 harg3 arg4 harg4 arg5 harg5 arg6 harg6 arg7 harg7 arg8 harg8 x0 x1 x2 x3 _ _ _ (by decide)).trans ?_
  rw [read_writes_col]

/-- A MIDDLE COLUMN TILE: both chunks are added to the accumulator the point before left. -/
theorem sout_B (hc0 : ¬cond0_0 i) (hc1 : ¬cond0_1 i) (x0 x1 x2 x3 : Vec F S256x4096 .f32) (x4 xs0 : Vec F S256x1 .f32) :
    sout0_B_0 c i arg2 harg2 arg3 harg3 arg4 harg4 arg5 harg5 arg6 harg6 arg7 harg7 arg8 harg8 hc0 hc1 x0 x1 x2 x3 x4 xs0 = pointStep x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  refine (canon_after_loop_nil c i arg2 harg2 arg3 harg3 arg4 harg4 arg5 harg5 arg6 harg6 arg7 harg7 arg8 harg8 x0 x1 x2 x3 _ _ (by decide)).trans ?_
  rw [harg8.read_unread]

/-- THE LAST COLUMN TILE: the accumulator likewise; -/
theorem sout_C (hc0 : ¬cond0_0 i) (hc1 : cond0_1 i) (x0 x1 x2 x3 : Vec F S256x4096 .f32) (x4 xs0 : Vec F S256x1 .f32) :
    sout0_C_0 c i arg2 harg2 arg3 harg3 arg4 harg4 arg5 harg5 arg6 harg6 arg7 harg7 arg8 harg8 hc0 hc1 x0 x1 x2 x3 x4 xs0 = pointStep x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  refine (canon_after_loop_nil c i arg2 harg2 arg3 harg3 arg4 harg4 arg5 harg5 arg6 harg6 arg7 harg7 arg8 harg8 x0 x1 x2 x3 _ _ (by decide)).trans ?_
  rw [harg8.read_unread]

/-- and the output block is the finalize payload of the factor block and of that accumulator. -/
theorem out_C (hc0 : ¬cond0_0 i) (hc1 : cond0_1 i) (x0 x1 x2 x3 : Vec F S256x4096 .f32) (x4 xs0 : Vec F S256x1 .f32) :
    out0_C_5 c i arg2 harg2 arg3 harg3 arg4 harg4 arg5 harg5 arg6 harg6 arg7 harg7 arg8 harg8 hc0 hc1 x0 x1 x2 x3 x4 xs0 = k0_pay3 x4 (pointStep x0 x1 x2 x3 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [canon_col]
  simp only [View.readAt_eq_ld, harg6.read_unread, View.ld_unit_zero (S := S256x1) hz]
  rw [read_after_loop c i arg2 harg2 arg3 harg3 arg4 harg4 arg5 harg5 arg6 harg6 arg7 harg7 arg8 harg8 x0 x1 x2 x3 _ _ (by decide), harg8.read_unread]

end Cert.KernelIdeal.TileBody

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.TileValue.lean ====
/-
  One grid point's body, read at the extended reals, one row at a time.

  At row r of a 256-row tile, a chunk update adds to the accumulator's entry the sum, over the chunk's 2048 columns, of
  (p − q)² + (u − v)² at that row; the two chunks of a point are columns 0 … 2047 and 2048 … 4095 of the point's block.
  The finalize payload multiplies the accumulator's entry by the row's factor.
-/
import proofs.«109048_j74131135529095_2_alg».proof.Proof.TileBody
import proofs.«109048_j74131135529095_2_alg».proof.Proof.LibColumn
import proofs.«109048_j74131135529095_2_alg».proof.Proof.LossSpec
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.TileValue

open Cert.KernelIdeal Cert.KernelIdeal.Gen Cert.KernelIdeal.TileBody Idealize.ShloMosaic.ValueIdx

/-- Column l of chunk k, as a column of the 4096-column block. -/
def chunkCol (k : Fin k0_t1_loop.trips) (l : Fin 2048) : Fin 4096 :=
  ⟨2048 * k.val + l.val, by have hk : k.val < 2 := Nat.lt_of_lt_of_le k.isLt k0_t1_abs.2.1; have := l.isLt; omega⟩

/-- (p − q)² + (u − v)² at one entry of a block. -/
def sqAt (x0 x1 x2 x3 : FVec Ideal S256x4096 .f32) (r : Fin 256) (cc : Fin 4096) : EReal :=
  (x0 (ix2 r cc) - x2 (ix2 r cc)) * (x0 (ix2 r cc) - x2 (ix2 r cc)) + (x1 (ix2 r cc) - x3 (ix2 r cc)) * (x1 (ix2 r cc) - x3 (ix2 r cc))

/-- A chunk's load reads the block at the chunk's columns. -/
theorem ld_chunk (x : Vec Ideal S256x4096 .f32) (k : Fin k0_t1_loop.trips) (r : Fin 256) (l : Fin 2048) :
    View.ld (Val := Elt Ideal) (e' := EltTy.f32) x (chunkRect k) (ix2 r l) = x (ix2 r (chunkCol k l)) := by
  show x ((chunkRect k).idx (ix2 r l)) = x (ix2 r (chunkCol k l))
  refine congrArg x (funext fun a => Fin.ext ?_)
  match a with
  | ⟨0, _⟩ =>
    show (k0_off1 k) 0 + 1 * r.val = r.val
    rw [k0_off1_eq k]; show 0 + 1 * r.val = r.val; omega
  | ⟨1, _⟩ =>
    show (k0_off1 k) 1 + 1 * l.val = 2048 * k.val + l.val
    rw [k0_off1_eq k]; show 2048 * k.val + 1 * l.val = 2048 * k.val + l.val; omega

/-- The row-sum's inserted index is (r, l). -/
theorem lift_row (r : Fin 256) (l : Fin 2048) :
    reduces_S256x2048_S256.lift (ix1 r) l = ix2 r l :=
  funext fun a => Fin.ext (by match a with | ⟨0, _⟩ => rfl | ⟨1, _⟩ => rfl)

/-- The squared differences, entry by entry. -/
theorem sq_entry (v12 v14 v16 v18 : FVec Ideal S256x2048 .f32) (j : S256x2048.Idx) :
    addf (mulf (subf v12 v14) (subf v12 v14)) (mulf (subf v16 v18) (subf v16 v18)) j
      = (v12 j - v14 j) * (v12 j - v14 j) + (v16 j - v18 j) * (v16 j - v18 j) := rfl

set_option backward.isDefEq.respectTransparency.types false in
/-- One chunk update at row r: the accumulator's entry plus the chunk's row sum. -/
theorem chunkStep_apply (x0 x1 x2 x3 : FVec Ideal S256x4096 .f32) (k : Fin k0_t1_loop.trips) (acc : FVec Ideal S256x1 .f32)
    (r : Fin 256) :
    chunkStep (F := Ideal) x0 x1 x2 x3 k acc (ix2 r (0 : Fin 1))
      = acc (ix2 r (0 : Fin 1)) + ∑ l : Fin 2048, sqAt x0 x1 x2 x3 r (chunkCol k l) := by
  unfold chunkStep k0_pay2
  refine (congrFun (shapeCast_self _ _) _).trans ?_
  refine congrArg (acc (ix2 r (0 : Fin 1)) + ·) ?_
  refine (Cert.Lib.shapeCast_a_a1_apply _ shapeCasts_S256_S256x1 r (0 : Fin 1)).trans ?_
  refine (Ideal.multiReduction_add_single _ (0x00000000#32 : BitVec 32) reduces_S256x2048_S256 (.inl rfl) rfl (ix1 r)).trans ?_
  refine Finset.sum_congr rfl fun (l : Fin 2048) _ => ?_
  refine (sq_entry _ _ _ _ _).trans ?_
  rw [lift_row r l]
  have e0 := ld_chunk x0 k r l
  have e1 := ld_chunk x1 k r l
  have e2 := ld_chunk x2 k r l
  have e3 := ld_chunk x3 k r l
  rw [e0, e1, e2, e3]
  rfl

/-- Both chunks of a point at row r. -/
theorem pointStep_apply (x0 x1 x2 x3 : FVec Ideal S256x4096 .f32) (acc : FVec Ideal S256x1 .f32) (r : Fin 256) :
    pointStep (F := Ideal) x0 x1 x2 x3 acc (ix2 r (0 : Fin 1))
      = acc (ix2 r (0 : Fin 1)) + ∑ l : Fin 2048, sqAt x0 x1 x2 x3 r (chunkCol t0 l) + ∑ l : Fin 2048, sqAt x0 x1 x2 x3 r (chunkCol t1 l) := by
  unfold pointStep
  rw [chunkStep_apply, chunkStep_apply]

/-- The zero column's entries are 0. -/
theorem zero_col_apply (r : Fin 256) : k0_pay1 (F := Ideal) (ix2 r (0 : Fin 1)) = 0 := by
  unfold k0_pay1
  refine (congrFun (shapeCast_self _ _) _).trans ?_
  show Ideal.ofBits .f32 0x00000000#32 = 0
  exact Ideal.ofBits_zero_f32

/-- The finalize payload at row r: the accumulator's entry times the factor of the row's shape type. -/
theorem finalize_apply (x4 acc : FVec Ideal S256x1 .f32) (r : Fin 256) :
    k0_pay3 (F := Ideal) x4 acc (ix2 r (0 : Fin 1)) = acc (ix2 r (0 : Fin 1)) * Cert.LossSpec.factor (x4 (ix2 r (0 : Fin 1))) := by
  have e : shapeCast S256x1 x4 shapeCasts_S256x1_S256x1 = x4 := shapeCast_self _ _
  unfold k0_pay3 Cert.LossSpec.factor
  rw [e]
  rfl

end Cert.KernelIdeal.TileValue

end
-- ==== Proof.GridRec.lean ====
/-
  The accumulator across the grid, as a recurrence.

  The 64 grid points are 16 row tiles of 4 column tiles each, visited row tile by row tile. After a point the carried
  accumulator holds: at the first column tile of a row tile (point ≡ 0 mod 4) the zero column updated by the point's two
  chunks; at any other point the previous point's accumulator updated by the point's two chunks. At the last column tile
  (point ≡ 3 mod 4) the output block is the finalize payload of the factor block and of that accumulator.
-/
import proofs.«109048_j74131135529095_2_alg».proof.Proof.TileBody

set_option maxRecDepth 16384

noncomputable section

open Idealize.ShloMosaic Idealize.ShloMosaic.TcCoe Idealize.SL.Sem
open Idealize.ShloMosaic.Pipeline (Dat)

namespace Cert.KernelIdeal.GridRec

open Cert.KernelIdeal Cert.KernelIdeal.Gen Cert.KernelIdeal.TileBody

variable {F : FTy → Type} [FloatOps F]
variable (m : (ℓ : Loc nD τ sig) → Buf (Elt F) ℓ)

/-- The accumulator after point n. -/
abbrev accAt (c : Dev nD) (n : ℕ) (h : n < cfg0.N) : Vec F S256x1 .f32 := (outsAt0 m c n h).2

/-- The two chunks of point t applied to a column. -/
abbrev stepAt (c : Dev nD) (t : Fin cfg0.N) (acc : Vec F S256x1 .f32) : Vec F S256x1 .f32 :=
  pointStep (iblk m c 0 t) (iblk m c 1 t) (iblk m c 2 t) (iblk m c 3 t) acc

theorem acc_first (c : Dev nD) (t : Fin cfg0.N) (h0 : t.val % 4 = 0) :
    accAt m c t.val t.isLt = stepAt m c t (k0_pay1 (F := F)) := by
  have h1 : ¬t.val % 4 = 3 := by omega
  show (outsAt0 m c t.val t.isLt).2 = _
  rw [outsAt0_A m c t h0 h1]
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h))
    (iblk m c 0 t) (iblk m c 1 t) (iblk m c 2 t) (iblk m c 3 t) (iblk m c 4 t)

theorem acc_next (c : Dev nD) (t : Fin cfg0.N) (h0 : ¬t.val % 4 = 0) :
    accAt m c t.val t.isLt = stepAt m c t (accAt m c (t.val - 1) (Nat.lt_of_le_of_lt (Nat.sub_le _ _) t.isLt)) := by
  show (outsAt0 m c t.val t.isLt).2 = _
  by_cases h1 : t.val % 4 = 3
  · rw [outsAt0_C m c t h0 h1]
    exact sout_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1)
      (iblk m c 0 t) (iblk m c 1 t) (iblk m c 2 t) (iblk m c 3 t) (iblk m c 4 t)
      (outsAt0 m c (t.val - 1) (Nat.lt_of_le_of_lt (Nat.sub_le _ _) t.isLt)).2
  · rw [outsAt0_B m c t h0 h1]
    exact sout_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t)
      (outsAt0 m c (t.val - 1) (Nat.lt_of_le_of_lt (Nat.sub_le _ _) t.isLt)).2

theorem out_last (c : Dev nD) (t : Fin cfg0.N) (h1 : t.val % 4 = 3) :
    (outsAt0 m c t.val t.isLt).1 = k0_pay3 (iblk m c 4 t) (accAt m c t.val t.isLt) := by
  have h0 : ¬t.val % 4 = 0 := by omega
  have hacc := acc_next m c t h0
  show _ = k0_pay3 (iblk m c 4 t) (outsAt0 m c t.val t.isLt).2
  rw [show (outsAt0 m c t.val t.isLt).2 = stepAt m c t (accAt m c (t.val - 1) (Nat.lt_of_le_of_lt (Nat.sub_le _ _) t.isLt)) from hacc]
  rw [outsAt0_C m c t h0 h1]
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1)
    (iblk m c 0 t) (iblk m c 1 t) (iblk m c 2 t) (iblk m c 3 t) (iblk m c 4 t)
    (outsAt0 m c (t.val - 1) (Nat.lt_of_le_of_lt (Nat.sub_le _ _) t.isLt)).2

end Cert.KernelIdeal.GridRec

end
-- ==== Proof.BlockRead.lean ====
/-
  The kernel call's input blocks, read at an index of the whole arrays.

  The grid has 16 × 4 points; point t has row-tile t / 4 and column-tile t % 4. The four big arrays, 4096 × 16384, are
  staged in blocks of 256 × 4096: at point t, the block's entry (r, cc) is the array's entry
  (256 · (t / 4) + r, 4096 · (t % 4) + cc). The shape types are staged as a column of 256 rows out of the 4096 × 1 array
  that the host made, before the call, by casting the vector of 4096 shape types to a column; at point t the block's
  entry (r, 0) is the vector's entry 256 · (t / 4) + r. A block's coordinate along an axis is always the block index
  times the block's extent plus the coordinate inside the block.
-/
import proofs.«109048_j74131135529095_2_alg».proof.Proof.Gen.KernelIdeal.Frame
import proofs.«109048_j74131135529095_2_alg».proof.Proof.LibColumn
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.BlockRead

open Cert.KernelIdeal Cert.KernelIdeal.Gen Idealize.ShloMosaic Idealize.ShloMosaic.TcCoe Idealize.SL.Sem
  Idealize.ShloMosaic.ValueIdx

variable {F : FTy → Type} [FloatOps F]
variable (m : (ℓ : Loc nD τ sig) → Buf (Elt F) ℓ)

/-- A grid point is below 64. -/
theorem point_lt (t : Fin cfg0.N) : t.val < 64 := lt_of_lt_of_eq t.isLt (show cfg0.N = 64 from N_0)

/-- The row of the whole array that row r of point t's block is. -/
def tileRow (t : Fin cfg0.N) (r : Fin 256) : Fin 4096 :=
  ⟨256 * (t.val / 4) + r.val, by have := point_lt t; have := r.isLt; omega⟩

/-- The column of the whole array that column cc of point t's block is. -/
def tileCol (t : Fin cfg0.N) (cc : Fin 4096) : Fin 16384 :=
  ⟨4096 * (t.val % 4) + cc.val, by have := cc.isLt; omega⟩

/-- The block indices of window 0 at point t: its row-tile and its column-tile. -/
theorem index0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

/-- Window 0's block at point t, at (r, cc), is the first array at the tile's row and column. -/
theorem iblk0 (c : Dev nD) (t : Fin cfg0.N) (r : Fin 256) (cc : Fin 4096) :
    (iblk m c 0 t : Vec F S256x4096 .f32) (ix2 r cc)
      = m ((c : Thread nD τ).loc main_arg0) (ix2 (tileRow t r) (tileCol t cc)) := by
  have hi := index0 t
  unfold iblk
  rw [View.read_apply]
  show V m c main_arg0 _ = m (c.tc.loc main_arg0) _
  rw [V_main_arg0 m c]
  refine congrArg _ (funext fun a => Fin.ext ?_)
  match a with
  | ⟨0, _⟩ => show win0_0.index t 0 * 256 + 1 * r.val = 256 * (t.val / 4) + r.val; rw [hi.1]; omega
  | ⟨1, _⟩ => show win0_0.index t 1 * 4096 + 1 * cc.val = 4096 * (t.val % 4) + cc.val; rw [hi.2]; omega

/-- The block indices of window 1 at point t: its row-tile and its column-tile. -/
theorem index1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)

/-- Window 1's block at point t, at (r, cc), is the second array at the tile's row and column. -/
theorem iblk1 (c : Dev nD) (t : Fin cfg0.N) (r : Fin 256) (cc : Fin 4096) :
    (iblk m c 1 t : Vec F S256x4096 .f32) (ix2 r cc)
      = m ((c : Thread nD τ).loc main_arg1) (ix2 (tileRow t r) (tileCol t cc)) := by
  have hi := index1 t
  unfold iblk
  rw [View.read_apply]
  show V m c main_arg1 _ = m (c.tc.loc main_arg1) _
  rw [V_main_arg1 m c]
  refine congrArg _ (funext fun a => Fin.ext ?_)
  match a with
  | ⟨0, _⟩ => show win0_1.index t 0 * 256 + 1 * r.val = 256 * (t.val / 4) + r.val; rw [hi.1]; omega
  | ⟨1, _⟩ => show win0_1.index t 1 * 4096 + 1 * cc.val = 4096 * (t.val % 4) + cc.val; rw [hi.2]; omega

/-- The block indices of window 2 at point t: its row-tile and its column-tile. -/
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- Window 2's block at point t, at (r, cc), is the third array at the tile's row and column. -/
theorem iblk2 (c : Dev nD) (t : Fin cfg0.N) (r : Fin 256) (cc : Fin 4096) :
    (iblk m c 2 t : Vec F S256x4096 .f32) (ix2 r cc)
      = m ((c : Thread nD τ).loc main_arg2) (ix2 (tileRow t r) (tileCol t cc)) := by
  have hi := index2 t
  unfold iblk
  rw [View.read_apply]
  show V m c main_arg2 _ = m (c.tc.loc main_arg2) _
  rw [V_main_arg2 m c]
  refine congrArg _ (funext fun a => Fin.ext ?_)
  match a with
  | ⟨0, _⟩ => show win0_2.index t 0 * 256 + 1 * r.val = 256 * (t.val / 4) + r.val; rw [hi.1]; omega
  | ⟨1, _⟩ => show win0_2.index t 1 * 4096 + 1 * cc.val = 4096 * (t.val % 4) + cc.val; rw [hi.2]; omega

/-- The block indices of window 3 at point t: its row-tile and its column-tile. -/
theorem index3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

/-- Window 3's block at point t, at (r, cc), is the fourth array at the tile's row and column. -/
theorem iblk3 (c : Dev nD) (t : Fin cfg0.N) (r : Fin 256) (cc : Fin 4096) :
    (iblk m c 3 t : Vec F S256x4096 .f32) (ix2 r cc)
      = m ((c : Thread nD τ).loc main_arg3) (ix2 (tileRow t r) (tileCol t cc)) := by
  have hi := index3 t
  unfold iblk
  rw [View.read_apply]
  show V m c main_arg3 _ = m (c.tc.loc main_arg3) _
  rw [V_main_arg3 m c]
  refine congrArg _ (funext fun a => Fin.ext ?_)
  match a with
  | ⟨0, _⟩ => show win0_3.index t 0 * 256 + 1 * r.val = 256 * (t.val / 4) + r.val; rw [hi.1]; omega
  | ⟨1, _⟩ => show win0_3.index t 1 * 4096 + 1 * cc.val = 4096 * (t.val % 4) + cc.val; rw [hi.2]; omega

/-- The column the host makes before the call: the vector of shape types cast to 4096 × 1. -/
theorem V_main_v0 (c : Dev nD) :
    (V m c main_v0 : Vec F S4096x1 .f32)
      = shapeCast S4096x1 (m ((c : Thread nD τ).loc main_arg4)) shapeCasts_S4096_S4096x1 := by
  show StableHlo.after hostOps0 (fun b => m (c, b)) (Proc.devRef .tc main_v0) = _
  after_results
  rfl

/-- The block indices of window 4 at point t: its row-tile, and the one column. -/
theorem index4 : ∀ t : Fin cfg0.N, win0_4.index t 0 = t.val / 4 ∧ win0_4.index t 1 = 0 :=
  (by decide +kernel : ∀ t : Fin grid0.N, win0_4.index t 0 = t.val / 4 ∧ win0_4.index t 1 = 0)

/-- Window 4's block at point t, at (r, 0), is the column at the tile's row. -/
theorem iblk4_column (c : Dev nD) (t : Fin cfg0.N) (r : Fin 256) :
    (iblk m c 4 t : Vec F S256x1 .f32) (ix2 r (0 : Fin 1))
      = (V m c main_v0 : Vec F S4096x1 .f32) (ix2 (tileRow t r) (0 : Fin 1)) := by
  have hi := index4 t
  unfold iblk
  rw [View.read_apply]
  show V m c main_v0 _ = V m c main_v0 _
  refine congrArg _ (funext fun a => Fin.ext ?_)
  match a with
  | ⟨0, _⟩ => show win0_4.index t 0 * 256 + 1 * r.val = 256 * (t.val / 4) + r.val; rw [hi.1]; omega
  | ⟨1, _⟩ => show win0_4.index t 1 * 1 + 1 * 0 = 0; rw [hi.2]

/-- Window 4's block at point t, at (r, 0), is the shape type of the tile's row. -/
theorem iblk4 (c : Dev nD) (t : Fin cfg0.N) (r : Fin 256) :
    (iblk m c 4 t : Vec F S256x1 .f32) (ix2 r (0 : Fin 1))
      = m ((c : Thread nD τ).loc main_arg4) (ix1 (tileRow t r)) := by
  rw [iblk4_column m c t r, V_main_v0 m c]
  exact Cert.Lib.shapeCast_a_a1_apply _ _ _ _

end Cert.KernelIdeal.BlockRead

end
-- ==== Proof.LibTileSum.lean ====
/-
  Two small facts about sums and columns, independent of any program.

  A sum over the first m·n naturals can be taken tile by tile: n consecutive tiles of m positions each, tile s holding
  the positions m·s, m·s + 1, …, m·s + (m − 1). Only commutativity and associativity of the addition are used, so the
  fact holds in every commutative additive monoid — the extended reals included, infinities and all.

  A column of shape [a, 1] cast to the vector shape [a] keeps the row-major order, so the vector's entry at i is the
  column's entry at (i, 0).
-/
import Idealize.ShloMosaic.Lib.ValueIdx
import Idealize.ShloMosaic.Lib.Pipeline.Value

noncomputable section

namespace Cert.Lib

open Idealize.ShloMosaic Idealize.ShloMosaic.ValueIdx

/-- The first m·n naturals, summed tile by tile. -/
theorem sum_range_tiles {β : Type*} [AddCommMonoid β] (g : ℕ → β) (m : ℕ) : ∀ n : ℕ,
    ∑ s ∈ Finset.range n, ∑ q ∈ Finset.range m, g (m * s + q) = ∑ k ∈ Finset.range (m * n), g k
  | 0 => by simp
  | n + 1 => by
    rw [Finset.sum_range_succ, sum_range_tiles g m n, Nat.mul_succ, Finset.sum_range_add]

/-- The same with each tile's positions and the whole range as finite index types. -/
theorem sum_fin_tiles {β : Type*} [AddCommMonoid β] (g : ℕ → β) (m n : ℕ) {N : ℕ} (hN : m * n = N) :
    ∑ s ∈ Finset.range n, ∑ q : Fin m, g (m * s + q.val) = ∑ k : Fin N, g k.val := by
  subst hN
  rw [← Finset.sum_range (fun k => g k), ← sum_range_tiles g m n]
  exact Finset.sum_congr rfl fun s _ => (Finset.sum_range (fun q => g (m * s + q))).symm

variable {α : Type}

/-- A column [a, 1] cast to the vector shape [a] reads, at i, the column's entry at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.GridAcc.lean ====
/-
  What the accumulator and the output block hold, row by row, in terms of the whole arrays.

  Row r of row tile i is sample b = 256·i + r. After column tile j of row tile i the accumulator's entry at row r is the
  sum of (sin difference)² + (cos difference)² of sample b over the first 2·(j + 1) chunks of 2048 features: by induction
  on the point, each point adding its two chunks. After the last column tile these are all 8 chunks, that is all 16384
  features, and the output block's entry is that sum times the sample's factor.
-/
import proofs.«109048_j74131135529095_2_alg».proof.Proof.TileValue
import proofs.«109048_j74131135529095_2_alg».proof.Proof.GridRec
import proofs.«109048_j74131135529095_2_alg».proof.Proof.BlockRead
import proofs.«109048_j74131135529095_2_alg».proof.Proof.LibTileSum
import proofs.«109048_j74131135529095_2_alg».proof.Proof.LossSpec

set_option maxRecDepth 16384

noncomputable section

open Idealize.ShloMosaic Idealize.ShloMosaic.TcCoe Idealize.SL.Sem
open Idealize.ShloMosaic.Pipeline (Dat)

namespace Cert.KernelIdeal.GridAcc

open Cert.KernelIdeal Cert.KernelIdeal.Gen Cert.KernelIdeal.TileBody Cert.KernelIdeal.TileValue Cert.KernelIdeal.GridRec
open Cert.KernelIdeal.BlockRead Idealize.ShloMosaic.ValueIdx Cert.LossSpec

variable (m : (ℓ : Loc nD τ sig) → Buf (Elt Ideal) ℓ)

/-- The four arrays and the shape types on core c, as launched. -/
abbrev arr0 (c : Dev nD) : Mat := m ((c : Thread nD τ).loc main_arg0)
abbrev arr1 (c : Dev nD) : Mat := m ((c : Thread nD τ).loc main_arg1)
abbrev arr2 (c : Dev nD) : Mat := m ((c : Thread nD τ).loc main_arg2)
abbrev arr3 (c : Dev nD) : Mat := m ((c : Thread nD τ).loc main_arg3)
abbrev arr4 (c : Dev nD) : Col := m ((c : Thread nD τ).loc main_arg4)

/-- Sample b's squared differences at feature d, extended by 0 past the last feature. -/
def featTerm (c : Dev nD) (b : Fin 4096) (d : ℕ) : EReal :=
  if h : d < 16384 then sqDiff (arr0 m c) (arr2 m c) b ⟨d, h⟩ + sqDiff (arr1 m c) (arr3 m c) b ⟨d, h⟩ else 0

/-- Sample b's sum over chunk s of 2048 features. -/
def chunkSum (c : Dev nD) (b : Fin 4096) (s : ℕ) : EReal := ∑ l : Fin 2048, featTerm m c b (2048 * s + l.val)

/-- A block entry's squared differences are the sample's at the block's place in the arrays. -/
theorem sqAt_blocks (c : Dev nD) (t : Fin cfg0.N) (r : Fin 256) (cc : Fin 4096) :
    sqAt (iblk m c 0 t) (iblk m c 1 t) (iblk m c 2 t) (iblk m c 3 t) r cc
      = featTerm m c (tileRow t r) (4096 * (t.val % 4) + cc.val) := by
  have hlt : 4096 * (t.val % 4) + cc.val < 16384 := by have := cc.isLt; omega
  unfold sqAt featTerm
  rw [dif_pos hlt, iblk0, iblk1, iblk2, iblk3]
  rfl

/-- One chunk of a point is one chunk of the sample's features. -/
theorem chunk_of_point (c : Dev nD) (t : Fin cfg0.N) (r : Fin 256) (k : Fin k0_t1_loop.trips) :
    ∑ l : Fin 2048, sqAt (iblk m c 0 t) (iblk m c 1 t) (iblk m c 2 t) (iblk m c 3 t) r (chunkCol k l)
      = chunkSum m c (tileRow t r) (2 * (t.val % 4) + k.val) := by
  unfold chunkSum
  refine Finset.sum_congr rfl fun l _ => ?_
  rw [sqAt_blocks]
  refine congrArg (featTerm m c (tileRow t r)) ?_
  show 4096 * (t.val % 4) + (2048 * k.val + l.val) = 2048 * (2 * (t.val % 4) + k.val) + l.val
  omega

/-- A point's update at row r, in terms of the sample's chunks. -/
theorem stepAt_apply (c : Dev nD) (t : Fin cfg0.N) (acc : FVec Ideal S256x1 .f32) (r : Fin 256) :
    stepAt m c t acc (ix2 r (0 : Fin 1))
      = acc (ix2 r (0 : Fin 1)) + chunkSum m c (tileRow t r) (2 * (t.val % 4)) + chunkSum m c (tileRow t r) (2 * (t.val % 4) + 1) := by
  show pointStep (F := Ideal) (iblk m c 0 t) (iblk m c 1 t) (iblk m c 2 t) (iblk m c 3 t) acc (ix2 r (0 : Fin 1)) = _
  rw [pointStep_apply, chunk_of_point, chunk_of_point]
  rfl

/-- THE ACCUMULATOR after point n, at row r: the sample's first 2·(n mod 4) + 2 chunks. -/
theorem acc_eq (c : Dev nD) : ∀ (n : ℕ) (h : n < cfg0.N) (r : Fin 256),
    accAt m c n h (ix2 r (0 : Fin 1)) = ∑ s ∈ Finset.range (2 * (n % 4) + 2), chunkSum m c (tileRow ⟨n, h⟩ r) s
  | 0, h, r => by
    rw [show accAt m c 0 h = stepAt m c ⟨0, h⟩ (k0_pay1 (F := Ideal)) from acc_first m c ⟨0, h⟩ rfl]
    rw [stepAt_apply, zero_col_apply]
    show 0 + chunkSum m c _ (2 * (0 % 4)) + chunkSum m c _ (2 * (0 % 4) + 1) = ∑ s ∈ Finset.range (2 * (0 % 4) + 2), _
    simp [Finset.sum_range_succ]
  | n + 1, h, r => by
    by_cases h0 : (n + 1) % 4 = 0
    · rw [show accAt m c (n + 1) h = stepAt m c ⟨n + 1, h⟩ (k0_pay1 (F := Ideal)) from acc_first m c ⟨n + 1, h⟩ h0]
      rw [stepAt_apply, zero_col_apply]
      show 0 + chunkSum m c _ (2 * ((n + 1) % 4)) + chunkSum m c _ (2 * ((n + 1) % 4) + 1) = _
      rw [h0]
      simp [Finset.sum_range_succ]
    · have hprev : n < cfg0.N := Nat.lt_of_succ_lt h
      rw [show accAt m c (n + 1) h = stepAt m c ⟨n + 1, h⟩ (accAt m c n hprev) from acc_next m c ⟨n + 1, h⟩ h0]
      rw [stepAt_apply, acc_eq c n hprev r]
      have hrow : tileRow ⟨n, hprev⟩ r = tileRow ⟨n + 1, h⟩ r := by
        apply Fin.ext
        show 256 * (n / 4) + r.val = 256 * ((n + 1) / 4) + r.val
        omega
      have hmod : (n + 1) % 4 = n % 4 + 1 := by omega
      have hR : ∑ s ∈ Finset.range (2 * ((n + 1) % 4) + 2), chunkSum m c (tileRow ⟨n + 1, h⟩ r) s
          = ∑ s ∈ Finset.range (2 * (n % 4) + 2), chunkSum m c (tileRow ⟨n + 1, h⟩ r) s
            + chunkSum m c (tileRow ⟨n + 1, h⟩ r) (2 * (n % 4) + 2) + chunkSum m c (tileRow ⟨n + 1, h⟩ r) (2 * (n % 4) + 2 + 1) := by
        rw [hmod, show 2 * (n % 4 + 1) + 2 = (2 * (n % 4) + 2) + 1 + 1 from by ring, Finset.sum_range_succ, Finset.sum_range_succ]
      rw [hrow, hR]
      show _ + chunkSum m c _ (2 * ((n + 1) % 4)) + chunkSum m c _ (2 * ((n + 1) % 4) + 1) = _
      rw [hmod, show 2 * (n % 4 + 1) = 2 * (n % 4) + 2 from by ring]

/-- All 8 chunks are all 16384 features. -/
theorem all_chunks (c : Dev nD) (b : Fin 4096) :
    ∑ s ∈ Finset.range 8, chunkSum m c b s
      = ∑ d : Fin 16384, (sqDiff (arr0 m c) (arr2 m c) b d + sqDiff (arr1 m c) (arr3 m c) b d) := by
  unfold chunkSum
  rw [Cert.Lib.sum_fin_tiles (featTerm m c b) 2048 8 (N := 16384) (by norm_num)]
  refine Finset.sum_congr rfl fun d _ => ?_
  unfold featTerm
  rw [dif_pos d.isLt]

/-- A sample's weighted sum: its squared differences over all features, times its factor. -/
def rowLoss (c : Dev nD) (b : Fin 4096) : EReal :=
  (∑ d : Fin 16384, (sqDiff (arr0 m c) (arr2 m c) b d + sqDiff (arr1 m c) (arr3 m c) b d)) * factor (arr4 m c (ix1 b))

/-- THE OUTPUT BLOCK at the last column tile of a row tile, at row r: the sample's weighted sum. -/
theorem out_row (c : Dev nD) (t : Fin cfg0.N) (h3 : t.val % 4 = 3) (r : Fin 256) :
    (outsAt0 m c t.val t.isLt).1 (ix2 r (0 : Fin 1)) = rowLoss m c (tileRow t r) := by
  rw [out_last m c t h3, finalize_apply, iblk4]
  have hacc := acc_eq m c t.val t.isLt r
  rw [h3] at hacc
  rw [show (accAt m c t.val t.isLt) (ix2 r (0 : Fin 1)) = _ from hacc, all_chunks]
  rfl

end Cert.KernelIdeal.GridAcc

end
-- ==== Proof.FinalArray.lean ====
/-
  The pallas_call's result array after the run.

  The output window's block at point t is rows 256·(t / 4) … 256·(t / 4) + 255 of the one column of the [4096, 1] result
  array; it is written back at the last column tile of each row tile (t ≡ 3 mod 4) and holds there each sample's weighted
  sum. The 16 written-back blocks tile the array, so the array ends holding every sample's weighted sum.
-/
import proofs.«109048_j74131135529095_2_alg».proof.Proof.GridAcc

set_option maxRecDepth 16384

noncomputable section

open Idealize.ShloMosaic Idealize.ShloMosaic.TcCoe Idealize.SL.Sem
open Idealize.ShloMosaic.Pipeline (Dat)

namespace Cert.KernelIdeal.FinalArray

open Cert.KernelIdeal Cert.KernelIdeal.Gen Cert.KernelIdeal.GridAcc Cert.KernelIdeal.BlockRead
open Idealize.ShloMosaic.ValueIdx Cert.LossSpec

variable (m : (ℓ : Loc nD τ sig) → Buf (Elt Ideal) ℓ)

/-- The output window's block indices at point t: its row tile, and the one column. -/
theorem out_index : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- Every sample's weighted sum, as a [4096, 1] array. -/
def outArr (c : Dev nD) : S4096x1.Idx → EReal := fun idx => rowLoss m c ⟨(idx 0).val, idx2_lt0 idx⟩

/-- What a last column tile writes back is its block of that array. -/
theorem flushed_eq (c : Dev nD) (t : Fin cfg0.N) (hf : (cfg0.win 5).flush t = true) :
    (dats m 0 c).flushed 5 t = ((cfg0.win 5).blk t).view.read (Elt Ideal) (outArr m c) := by
  have h3 : t.val % 4 = 3 := (flush0_5 t).mp hf
  show (cfg0.win 5).cut (grid0.coords t) ((dats m 0 c).after 5 t) = _
  rw [after0_5]
  funext y
  obtain ⟨r, u, rfl⟩ : ∃ (r : Fin 256) (u : Fin 1), y = ix2 r u := ⟨y 0, y 1, eq_ix2 y⟩
  obtain rfl : u = 0 := Subsingleton.elim _ _
  rw [View.read_apply]
  show (outsAt0 m c t.val t.isLt).1 (ix2 r (0 : Fin 1)) = outArr m c (((cfg0.win 5).blk t).view.emb (ix2 r (0 : Fin 1)))
  rw [out_row m c t h3 r]
  unfold outArr
  refine congrArg (rowLoss m c) (Fin.ext ?_)
  show 256 * (t.val / 4) + r.val = win0_5.index t (0 : Fin 2) * 256 + 1 * r.val
  rw [(out_index t).1]; omega

/-- An index of the array is in point t's block iff each coordinate is in the block's range. -/
theorem mem_blk (t : Fin cfg0.N) (i : S4096x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v1).slice (win0_5.rect t)).set ↔ _
  rw [View.set_slice_whole, Rect.mem_set_unit]
  exact Iff.rfl

/-- Every row of the array lies in the block some last column tile writes back. -/
theorem cover (i : S4096x1.Idx) : ∃ t : Fin cfg0.N, (cfg0.win 5).flush t = true ∧ i ∈ ((cfg0.win 5).blk t).view.set := by
  have hN : cfg0.N = 64 := N_0
  have hi0 : (i 0).val < 4096 := idx2_lt0 i
  have hi1 : (i 1).val < 1 := idx2_lt1 i
  obtain ⟨t, ht⟩ : ∃ t : Fin cfg0.N, t.val = 4 * ((i 0).val / 256) + 3 := ⟨⟨4 * ((i 0).val / 256) + 3, by rw [hN]; omega⟩, rfl⟩
  obtain ⟨e0, e1⟩ := out_index t
  refine ⟨t, (flush0_5 t).mpr (by rw [ht]; omega), ?_⟩
  rw [mem_blk]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 1 ≤ (i 1).val ∧ (i 1).val < win0_5.index t (1 : Fin 2) * 1 + 1
    rw [e1]; omega

/-- THE RESULT ARRAY after the run. -/
theorem final_out (c : Dev nD) : (dats m 0 c).arrAt 5 cfg0.N = outArr m c :=
  (dats m 0 c).arrAt_eq_of_cover 5 (outArr m c) (fun t hf => flushed_eq m c t hf) (cover)

/-- At sample b the array holds the sample's weighted sum. -/
theorem outArr_apply (c : Dev nD) (b : Fin 4096) : outArr m c (ix2 b (0 : Fin 1)) = rowLoss m c b := rfl

end Cert.KernelIdeal.FinalArray

end
-- ==== Proof.KernelTail.lean ====
/-
  The kernel program's last three host operations, on the per-sample column the kernel call leaves, give the pooled
  arrangement of the loss.

  The column Y has 4096 rows and one column; row b holds (∑_d (sin² + cos²)) · factor_b. The host adds all its entries
  to the word of zero, divides by the word of 2^26 and multiplies the word of two by the quotient. A sum into a result
  of rank zero is the initial value plus the sum over every index of the operand; a rank-2 index set is the product of
  its coordinate ranges, and the second range has one element, so the sum is over the samples b. What is left is the
  pooled arrangement, word for word.
-/
import proofs.«109048_j74131135529095_2_alg».proof.Proof.Gen.KernelIdeal
import proofs.«109048_j74131135529095_2_alg».proof.Proof.LossSpec
import Idealize.ShloMosaic.Lib.ValueIdx
import Idealize.ShloMosaic.PureOps.Ideal.Laws

noncomputable section

namespace Cert.KernelTail

open Cert.KernelIdeal Cert.KernelIdeal.Gen Idealize.ShloMosaic Idealize.ShloMosaic.ValueIdx Cert.LossSpec

/-- The host's sum of the whole column, into the one result index, is the initial word plus the sum over the samples. -/
theorem reduce_column (hr : S4096x1.ReducesTo [0, 1] S_) (hu : 0 < S_.numel)
    (Y : (⟨S4096x1, .f32⟩ : BufTy).Contents (Elt Ideal)) (i : S_.Idx) :
    Host.reduceAdd (F := Ideal) Y (constant (F := Ideal) S_ .f32 0x00000000#32) hr hu i
      = Ideal.ofBits .f32 0x00000000#32 + ∑ b : Fin 4096, Y (ix2 b (0 : Fin 1)) := by
  simp only [Host.reduceAdd, Ideal.hostReduceAdd_def]
  rw [Ideal.hostReduceAdd_total hr (fun b => b.elim0) Y _ i, sum_idx2]
  refine congrArg₂ (· + ·) rfl (Finset.sum_congr rfl fun b _ => ?_)
  exact Fin.sum_univ_one _

/-- The tail on a column whose row b is the sample's weighted sum of squares is the pooled loss; for any proofs of the
    two shape facts the sum takes. -/
theorem tail_eq_pooled' (hr : S4096x1.ReducesTo [0, 1] S_) (hu : 0 < S_.numel)
    (Y : (⟨S4096x1, .f32⟩ : BufTy).Contents (Elt Ideal)) (a0 a1 a2 a3 : Mat) (a4 : Col)
    (hY : ∀ b : Fin 4096, Y (ix2 b (0 : Fin 1))
      = (∑ d : Fin 16384, (sqDiff a0 a2 b d + sqDiff a1 a3 b d)) * factor (a4 (ix1 b))) (i : S_.Idx) :
    mulf (constant (F := Ideal) S_ .f32 0x40000000#32)
        (Host.divf (F := Ideal) (Host.reduceAdd (F := Ideal) Y (constant (F := Ideal) S_ .f32 0x00000000#32) hr hu)
          (constant (F := Ideal) S_ .f32 0x4C800000#32)) i
      = pooled a0 a1 a2 a3 a4 := by
  show Ideal.ofBits .f32 0x40000000#32
      * Ideal.div (Host.reduceAdd (F := Ideal) Y (constant (F := Ideal) S_ .f32 0x00000000#32) hr hu i)
          (Ideal.ofBits .f32 0x4C800000#32) = _
  rw [reduce_column hr hu Y i]
  simp only [hY]
  rfl

/-- The same at the generated proofs of the two shape facts. -/
theorem tail_eq_pooled (Y : (⟨S4096x1, .f32⟩ : BufTy).Contents (Elt Ideal)) (a0 a1 a2 a3 : Mat) (a4 : Col)
    (hY : ∀ b : Fin 4096, Y (ix2 b (0 : Fin 1))
      = (∑ d : Fin 16384, (sqDiff a0 a2 b d + sqDiff a1 a3 b d)) * factor (a4 (ix1 b))) (i : S_.Idx) :
    mulf (constant (F := Ideal) S_ .f32 0x40000000#32)
        (Host.divf (F := Ideal) (Host.reduceAdd (F := Ideal) Y (constant (F := Ideal) S_ .f32 0x00000000#32)
          reducesTo_S4096x1_S_d0_1 h_S_) (constant (F := Ideal) S_ .f32 0x4C800000#32)) i
      = pooled a0 a1 a2 a3 a4 :=
  tail_eq_pooled' reducesTo_S4096x1_S_d0_1 h_S_ Y a0 a1 a2 a3 a4 hY i

end Cert.KernelTail

end
-- ==== Proof.KernelRun.lean ====
/-
  The kernel program's run, read: its result is the pooled arrangement of the loss.

  After the pallas_call the program sums the [4096, 1] result array over both axes from 0, divides by 2^26 and doubles.
  The array holds every sample's weighted sum, so the result is the pooled loss of the five argument arrays, which the
  run leaves unchanged.
-/
import proofs.«109048_j74131135529095_2_alg».proof.Proof.FinalArray
import proofs.«109048_j74131135529095_2_alg».proof.Proof.KernelTail
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.KernelIdeal.GridAcc Cert.KernelIdeal.FinalArray
open Idealize.ShloMosaic.ValueIdx Cert.LossSpec

variable (m : (ℓ : Loc nD τ sig) → Buf (Elt Ideal) ℓ) (ρ : Dev nD → PrngReg)

/-- The pooled loss of the arrays as launched on core c, as the rank-0 result. -/
def lossAt (c : Dev nD) : Buf (Elt Ideal) ((c.tc : Thread nD τ).loc main_v4) :=
  fun _ => pooled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- What the lines after the region leave in the program's result. -/
theorem tail_result (c : Dev nD) :
    Pipeline.afterTail₀ cfgs (dats m) 0 (V0 m) [hostOps1] c main_v4 = lossAt m c := by
  unfold Pipeline.afterTail₀
  show StableHlo.after hostOps1 _ (Proc.devRef .tc main_v4) = _
  after_results
  have hY : Pipeline.withArrays (cfgs 0).spec c (V0 m c) (fun w => (dats m 0 c).arrAt w (cfgs 0).N) (Proc.devRef .tc main_v1)
      = outArr m c :=
    (Pipeline.withArrays_arr (cfgs 0).spec launch0.win.arr_inj c _ _ 5).trans (final_out m c)
  rw [hY]
  funext i
  exact Cert.KernelTail.tail_eq_pooled' _ _ (outArr m c) _ _ _ _ _ (fun b => rfl) i

/-- THE RUN, READ: every weakly fair execution ends with the result at the pooled loss of the launched arrays and the
    five argument arrays unchanged. -/
theorem run : θ_run (defs (F := Ideal)) (onTc (τ := τ) (main (F := Ideal))) ⟨m, fun _ => 0, ρ⟩ fun r => ∀ c : Dev nD,
      r.2.mem ((c.tc : Thread nD τ).loc main_v4) = lossAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v4 (Pipeline.mem_restRefs_of main_v4 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KernelRun

end
-- ==== Proof.lean ====
/-
  The kernel and the reference compute one loss of four 4096 × 16384 arrays (a predicted and a true sine part, a
  predicted and a true cosine part) and one shape type per sample: twice a mean over samples of the per-sample sums of
  squared differences, each weighted by the sample's factor. The kernel pools: it adds the sine and cosine squares,
  sums over features and samples, and divides once by 4096 · 16384. The reference stages: it divides each per-sample
  sum by 16384, adds, weights, sums over samples and divides by 4096. Under the precondition every entry is a real
  number, and on real inputs the two arrangements are equal (distributivity, which fails only at the infinities).
-/
import proofs.«109048_j74131135529095_2_alg».proof.Defs
import proofs.«109048_j74131135529095_2_alg».proof.Proof.Gen.Kernel
import proofs.«109048_j74131135529095_2_alg».proof.Proof.Gen.Kernel.Skeleton
import proofs.«109048_j74131135529095_2_alg».proof.Proof.Gen.Kernel.Loops
import proofs.«109048_j74131135529095_2_alg».proof.Proof.Gen.Kernel.Launch
import proofs.«109048_j74131135529095_2_alg».proof.Proof.Gen.Kernel.Points
import proofs.«109048_j74131135529095_2_alg».proof.Proof.Gen.Kernel.Frame
import proofs.«109048_j74131135529095_2_alg».proof.Proof.Gen.KernelIdeal
import proofs.«109048_j74131135529095_2_alg».proof.Proof.Gen.KernelIdeal.Skeleton
import proofs.«109048_j74131135529095_2_alg».proof.Proof.Gen.KernelIdeal.Loops
import proofs.«109048_j74131135529095_2_alg».proof.Proof.Gen.KernelIdeal.Launch
import proofs.«109048_j74131135529095_2_alg».proof.Proof.Gen.KernelIdeal.Points
import proofs.«109048_j74131135529095_2_alg».proof.Proof.Gen.KernelIdeal.Frame
import proofs.«109048_j74131135529095_2_alg».proof.Proof.Gen.ReferenceIdeal
import proofs.«109048_j74131135529095_2_alg».proof.Proof.Gen.Pre_finite_inputs
import proofs.«109048_j74131135529095_2_alg».proof.Proof.Gen.ReferenceIdeal.Run
import proofs.«109048_j74131135529095_2_alg».proof.Proof.Gen.ReferenceIdeal.Read
import proofs.«109048_j74131135529095_2_alg».proof.Proof.RefBridge
import proofs.«109048_j74131135529095_2_alg».proof.Proof.KernelRun
import Idealize.ShloMosaic.Adequacy
import Idealize.ShloMosaic.Init

noncomputable section

namespace Cert.Proof

open Idealize.ShloMosaic Idealize.SL.Sem Cert.Kernel

/-- The kernel runs and leaves its arguments as it found them. -/
theorem frame_Kernel : Cert.frame_Kernel := fun m ρ _ => Cert.Kernel.Gen.frame m ρ

/-- So does the kernel read over the extended reals. -/
theorem frame_KernelIdeal : Cert.frame_KernelIdeal := fun m ρ _ => Cert.KernelIdeal.Gen.frame m ρ

/-- So does the reference: its run leaves the arguments unchanged. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories agreeing on the arguments, the kernel ends at the pooled loss of its
    arguments, and the reference at the staged loss of its own, which under the precondition is the pooled loss of
    the same arrays. -/
theorem algebraic : Cert.algebraic_KernelIdeal_ReferenceIdeal := by
  intro m ρ m' ρ' hpre hagree
  refine ⟨fun c => Cert.KernelIdeal.KernelRun.lossAt m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4]
  exact Cert.RefBridge.reference_eq_pooled _ _ _ _ _ (hpre c)

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
